-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16x8 .f32) (main_arg5 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x8 .f32) (main_arg5 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x16 : Shape := ⟨2, ![1, 16]⟩
abbrev S1x8 : Shape := ⟨2, ![1, 8]⟩
abbrev S10000x16 : Shape := ⟨2, ![10000, 16]⟩
abbrev S10000x8 : Shape := ⟨2, ![10000, 8]⟩
abbrev S400x10000 : Shape := ⟨2, ![400, 10000]⟩
abbrev S400x8 : Shape := ⟨2, ![400, 8]⟩
abbrev S400x16 : Shape := ⟨2, ![400, 16]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x16, .f32⟩
  | .hbm, ⟨7, _⟩ => ⟨S1x8, .f32⟩
  | .hbm, ⟨8, _⟩ => ⟨S10000x16, .f32⟩
  | .hbm, ⟨9, _⟩ => ⟨S10000x8, .f32⟩
  | .hbm, ⟨10, _⟩ => ⟨S10000x8, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S400x10000, .f32⟩
  | .local _ .vmem, ⟨4, _⟩ => ⟨S400x10000, .f32⟩
  | .local _ .vmem, ⟨5, _⟩ => ⟨S10000x16, .f32⟩
  | .local _ .vmem, ⟨6, _⟩ => ⟨S1x16, .f32⟩
  | .local _ .vmem, ⟨7, _⟩ => ⟨S16x8, .f32⟩
  | .local _ .vmem, ⟨8, _⟩ => ⟨S400x8, .f32⟩
  | .local _ .vmem, ⟨9, _⟩ => ⟨S400x8, .f32⟩
  | .local _ .vmem, ⟨10, _⟩ => ⟨S400x10000, .f32⟩
  | .local _ .vmem, ⟨11, _⟩ => ⟨S400x10000, .f32⟩
  | .local _ .vmem, ⟨12, _⟩ => ⟨S10000x8, .f32⟩
  | .local _ .vmem, ⟨13, _⟩ => ⟨S1x8, .f32⟩
  | .local _ .vmem, ⟨14, _⟩ => ⟨S400x8, .f32⟩
  | .local _ .vmem, ⟨15, _⟩ => ⟨S400x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16_S1x16 : S16.ShapeCasts S1x16
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x8_S16x8_0_0 : ∀ a, (![0, 0] : Fin 2 → Nat) a + S16x8.size a ≤ S16x8.size a
  h_S16x8 : 0 < S16x8.numel
  inb_S400x8_S400x8_0_0 : ∀ a, (![0, 0] : Fin 2 → Nat) a + S400x8.size a ≤ S400x8.size a
  h_S400x8 : 0 < S400x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S400x8 : S1x8.Broadcasts S400x8
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S400x16_S16x8_S400x8_1_0_0_1_n_n_wf : DotDims.WF S400x16 S16x8 S400x8 [1] [0] [0] [1] [] []
  dot_S400x10000_S10000x8_S400x8_1_0_0_1_n_n_wf : DotDims.WF S400x10000 S10000x8 S400x8 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x8.size a ≤ S10000x8.size a
  hwx1_4 : ∀ i : grid1.Coords, EltTy.bits .f32 = 32 ∨ (Rect.block (s := S10000x8) S400x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x8.size a ≤ S10000x8.size a
  hwx2_3 : ∀ i : grid2.Coords, EltTy.bits .f32 = 32 ∨ (Rect.block (s := S10000x8) S400x8.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x8_S400x8_1_0_0_1_n_n : DotDims S400x16 S16x8 S400x8 where
  lhsContracting := [1]
  rhsContracting := [0]
  lhsNonContracting := [0]
  rhsNonContracting := [1]
  lhsBatch := []
  rhsBatch := []
  wf := dot_S400x16_S16x8_S400x8_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_call0_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S400x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S10000x16 : Shape := ⟨2, ![10000, 16]⟩
abbrev S1x16 : Shape := ⟨2, ![1, 16]⟩
abbrev S_ : Shape := ⟨0, ![]⟩
abbrev S10000x8 : Shape := ⟨2, ![10000, 8]⟩
abbrev S1x8 : Shape := ⟨2, ![1, 8]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S10000x8, .f32⟩
  | .hbm, ⟨16, _⟩ => ⟨S1x8, .f32⟩
  | .hbm, ⟨17, _⟩ => ⟨S10000x8, .f32⟩
  | .hbm, ⟨18, _⟩ => ⟨S10000x8, .f32⟩
  | .hbm, ⟨19, _⟩ => ⟨S10000x8, .f32⟩
  | .hbm, ⟨20, _⟩ => ⟨S10000x8, .f32⟩
  | .hbm, ⟨21, _⟩ => ⟨S_, .f32⟩
  | .hbm, ⟨22, _⟩ => ⟨S10000x8, .f32⟩
  | .hbm, ⟨23, _⟩ => ⟨S10000x8, .f32⟩
  | .hbm, ⟨24, _⟩ => ⟨S_, .f32⟩
  | .hbm, ⟨25, _⟩ => ⟨S10000x8, .f32⟩
  | .hbm, ⟨26, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  bcast_S_S10000x8 : S_.BroadcastsInDim S10000x8 (![] : Fin 0 → Fin S10000x8.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.KernelRun.lean ====
/-
  The idealized kernel program's run, with its result array named.

  The program is a stretch of host operations (the two biases reshaped to one-row arrays) followed by three kernel
  launches. The contents of every buffer at each boundary are a fold through the program: `W1` after the host
  stretch, `W2`, `W3`, `W4` after the first, second and third launch, each launch replacing its own arrays by what its
  write-backs leave and keeping every other buffer. Every weakly fair execution terminates, without a fault, with every
  unscoped buffer at `W4`; so the result array ends at `W4` read at the result's buffer, and the argument arrays end as
  launched. What `W4` holds there is read off launch by launch elsewhere; this module only names it.
-/
import proofs.«146205_g68719476814_cont_9to1_m_1391_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the six argument arrays as launched. -/
theorem run_result : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.Spec.lean ====
/-
  A two-layer graph convolution over a dense adjacency, on the extended reals.

  With `x` the node features, `adj` the adjacency, `w1`, `w2` the weights and `b1`, `b2` the one-row biases:
    support        = x · w1
    layer1 a s     = max (a · s + b1, 0) · w2          (the first layer with the second layer's weight folded in)
    layer2 a g     = logistic (a · g + b2)
    gcn            = layer2 adj (layer1 adj support)
  Every sum is written once, in the one order both programs use: no product is reassociated, so nothing here needs
  finiteness of the entries.

  `layer1` and `layer2` are stated for an adjacency of any number of rows, because an entry of either depends on its
  own row of the adjacency only: a block of rows of the layer is the layer of that block of rows
  (`layer1_rows`, `layer2_rows`).
-/
import proofs.«146205_g68719476814_cont_9to1_m_1391_1_alg».proof.Proof.LibPlainDot
import proofs.«146205_g68719476814_cont_9to1_m_1391_1_alg».proof.Proof.LibRowBias

noncomputable section

namespace Cert.Gcn

open Idealize.ShloMosaic Idealize.ShloMosaic.ValueIdx Cert.LibPlainDot Cert.LibRowBias

/-- An `[M, N]` array of extended reals. -/
abbrev Arr (M N : ℕ) : Type := (⟨2, ![M, N]⟩ : Shape).Idx → EReal

/-- The floor of the rectifier: the value of the all-zero word. -/
def floor0 : EReal := Ideal.ofBits .f32 0x00000000#32

/-- The features times the first weight. -/
def support (x : Arr 10000 128) (w1 : Arr 128 16) : Arr 10000 16 := rowsTimes x w1

/-- The rectified first layer of the rows `a` of the adjacency, times the second weight. -/
def layer1 {R : ℕ} (a : Arr R 10000) (s : Arr 10000 16) (b1 : Arr 1 16) (w2 : Arr 16 8) : Arr R 8 :=
  rowsTimes (rowBiasFloor floor0 (rowsTimes a s) b1) w2

/-- The second layer of the rows `a` of the adjacency: the logistic function of the biased product. -/
def layer2 {R : ℕ} (a : Arr R 10000) (g : Arr 10000 8) (b2 : Arr 1 8) : Arr R 8 :=
  fun i => Ideal.logistic (rowBias (rowsTimes a g) b2 i)

/-- The whole network. -/
def gcn (x : Arr 10000 128) (adj : Arr 10000 10000) (w1 : Arr 128 16) (b1 : Arr 1 16) (w2 : Arr 16 8) (b2 : Arr 1 8) :
    Arr 10000 8 :=
  layer2 adj (layer1 adj (support x w1) b1 w2) b2

/-- Rows `o, …, o + R - 1` of `layer1` are `layer1` of those rows of the adjacency. -/
theorem layer1_rows {M R : ℕ} (o : ℕ) (a : Arr M 10000) (ab : Arr R 10000) (s : Arr 10000 16) (b1 : Arr 1 16) (w2 : Arr 16 8)
    (ha : ∀ (y : Fin R) (k : Fin 10000) (h : o + y.val < M), ab (ix2 y k) = a (ix2 (⟨o + y.val, h⟩ : Fin M) k))
    (y : (⟨2, ![R, 8]⟩ : Shape).Idx) (i : (⟨2, ![M, 8]⟩ : Shape).Idx) (h0 : (i 0).val = o + (y 0).val) (h1 : (i 1).val = (y 1).val) :
    layer1 ab s b1 w2 y = layer1 a s b1 w2 i := by
  unfold layer1
  refine rowsTimes_rows o (rowBiasFloor floor0 (rowsTimes a s) b1) (rowBiasFloor floor0 (rowsTimes ab s) b1) w2
    (fun p q h => ?_) y i h0 h1
  exact rowBiasFloor_rows floor0 o (rowsTimes a s) (rowsTimes ab s) b1
    (fun p' q' h' => rowsTimes_rows o a ab s ha (ix2 p' q') (ix2 (⟨o + p'.val, h'⟩ : Fin M) q') rfl rfl)
    (ix2 p q) (ix2 (⟨o + p.val, h⟩ : Fin M) q) rfl rfl

/-- Rows `o, …, o + R - 1` of `layer2` are `layer2` of those rows of the adjacency. -/
theorem layer2_rows {M R : ℕ} (o : ℕ) (a : Arr M 10000) (ab : Arr R 10000) (g : Arr 10000 8) (b2 : Arr 1 8)
    (ha : ∀ (y : Fin R) (k : Fin 10000) (h : o + y.val < M), ab (ix2 y k) = a (ix2 (⟨o + y.val, h⟩ : Fin M) k))
    (y : (⟨2, ![R, 8]⟩ : Shape).Idx) (i : (⟨2, ![M, 8]⟩ : Shape).Idx) (h0 : (i 0).val = o + (y 0).val) (h1 : (i 1).val = (y 1).val) :
    layer2 ab g b2 y = layer2 a g b2 i := by
  unfold layer2
  refine congrArg Ideal.logistic ?_
  exact rowBias_rows o (rowsTimes a g) (rowsTimes ab g) b2
    (fun p q h => rowsTimes_rows o a ab g ha (ix2 p q) (ix2 (⟨o + p.val, h⟩ : Fin M) q) rfl rfl) y i h0 h1

end Cert.Gcn

end
-- ==== Proof.Body.lean ====
/-
  What each kernel body computes, on the extended reals.

  The first body stores the product of its two loaded blocks: `support`. The second loads a block of rows of the adjacency,
  the whole support, the one-row bias and the second weight, and stores max (rows · support + bias, 0) · weight:
  `layer1` of those rows. The third loads a block of rows of the adjacency, the whole first-layer result and the second
  one-row bias, and stores the logistic function of rows · result + bias: `layer2` of those rows.
  A matrix-unit product into the zero splat is the plain sum of products; a same-shape cast is the identity; a one-row
  array broadcast over the rows reads its single row; the scalar splat is the floor.
-/
import proofs.«146205_g68719476814_cont_9to1_m_1391_1_alg».proof.Proof.Gen.KernelIdeal.Skeleton
import proofs.«146205_g68719476814_cont_9to1_m_1391_1_alg».proof.Proof.Spec
import Idealize.ShloMosaic.Lib.Pipeline.Value
import Idealize.ShloMosaic.Lib.ValueLayout

noncomputable section

namespace Cert.KernelIdeal.Body

open Cert.KernelIdeal Cert.KernelIdeal.Gen
open Idealize.ShloMosaic Idealize.ShloMosaic.ValueIdx Cert.LibPlainDot Cert.LibRowBias Cert.Gcn

/-- The offsets of a whole-block access, however the zeros are spelt. -/
theorem zero_offsets : (![0, 0] : Fin 2 → Nat) = fun _ => 0 := funext fun a => by fin_cases a <;> rfl

/-- Rows plus a broadcast one-row bias: `rowBias`. -/
theorem bias_form {R N : ℕ} (a : FVec Ideal ⟨2, ![R, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![R, N]⟩) :
    addf a (broadcastTo ⟨2, ![R, N]⟩ (shapeCast ⟨2, ![1, N]⟩ b hb) hbc) = rowBias (M := R) (N := N) a b := by
  rw [shapeCast_self]
  funext i
  obtain ⟨p, q, rfl⟩ : ∃ (p : Fin R) (q : Fin N), i = ix2 p q := ⟨i 0, i 1, eq_ix2 i⟩
  rw [rowBias_apply]
  show a (ix2 p q) + broadcastTo ⟨2, ![R, N]⟩ b hbc (ix2 p q) = _
  rw [broadcastTo_1b_ab_apply]

/-- The same under a maximum with a scalar splat: `rowBiasFloor` at the splat word's value. -/
theorem floor_form {R N : ℕ} (w : BitVec 32) (a : FVec Ideal ⟨2, ![R, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![R, N]⟩) :
    maximumf (addf a (broadcastTo ⟨2, ![R, N]⟩ (shapeCast ⟨2, ![1, N]⟩ b hb) hbc))
        (broadcast ⟨2, ![R, N]⟩ (Scalar.ofBits (F := Ideal) .f32 w))
      = rowBiasFloor (M := R) (N := N) (Ideal.ofBits .f32 w) a b := by
  rw [bias_form]
  rfl

/-- The first body's stored value is the product of its two blocks. -/
theorem pay0 (x0 : Vec Ideal S10000x128 .f32) (x1 : Vec Ideal S128x16 .f32) : k0_pay1 x0 x1 = support x0 x1 :=
  matmul_zero_plain none x0 x1

/-- The second body's stored value is `layer1` of its block of rows. -/
theorem pay1 (a : Vec Ideal S400x10000 .f32) (s : Vec Ideal S10000x16 .f32) (b : Vec Ideal S1x16 .f32) (w : Vec Ideal S16x8 .f32) :
    k1_pay1 a s b w = layer1 (R := 400) a s b w := by
  unfold k1_pay1 layer1
  dsimp only
  rw [shapeCast_self s]
  have e : ∀ (a' : FVec Ideal S400x10000 .f32) (s' : FVec Ideal S10000x16 .f32),
      matmul dot_S400x10000_S10000x16_S400x16_1_0_0_1_n_n none a' s' (constant S400x16 .f32 0x00000000#32)
        = rowsTimes (M := 400) (K := 10000) (N := 16) a' s' := fun a' s' => matmul_zero_plain none a' s'
  rw [e a s]
  rw [floor_form]
  exact matmul_zero_plain none _ w

/-- The third body's stored value is `layer2` of its block of rows. -/
theorem pay2 (a : Vec Ideal S400x10000 .f32) (g : Vec Ideal S10000x8 .f32) (b : Vec Ideal S1x8 .f32) :
    k2_pay1 a g b = layer2 (R := 400) a g b := by
  unfold k2_pay1 layer2
  dsimp only
  rw [shapeCast_self g]
  have e : ∀ (a' : FVec Ideal S400x10000 .f32) (g' : FVec Ideal S10000x8 .f32),
      matmul dot_S400x10000_S10000x8_S400x8_1_0_0_1_n_n none a' g' (constant S400x8 .f32 0x00000000#32)
        = rowsTimes (M := 400) (K := 10000) (N := 8) a' g' := fun a' g' => matmul_zero_plain none a' g'
  rw [e a g]
  rw [bias_form]
  rfl

end Cert.KernelIdeal.Body

end
-- ==== Proof.Launch0.lean ====
/-
  The first launch: one point, every window its whole array. It leaves `support` of the features and the first weight,
  as the launch finds them, in its output array.

  Each input block is the whole input array (block index zero on both axes), the body's one store through the whole
  staging buffer leaves its payload, the payload is the product of the two blocks, and the one write-back covers the
  output array.
-/
import proofs.«146205_g68719476814_cont_9to1_m_1391_1_alg».proof.Proof.Gen.KernelIdeal.Frame
import proofs.«146205_g68719476814_cont_9to1_m_1391_1_alg».proof.Proof.Body
import Idealize.ShloMosaic.Lib.Pipeline.Value

set_option maxRecDepth 16384

noncomputable section

namespace Cert.KernelIdeal.Hand

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

-- the contents of the core's buffers when the launch is entered: a parameter, never opened here
variable (V : (c : Dev nD) → (b : Ref sig .tc) → Buf (Elt Ideal) ((c : Thread nD τ).loc b))

/-- The block indices of the three windows are zero at the launch's one point. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The body's one store leaves the product of its two loaded blocks. -/
theorem out0_eq (x0 : Vec Ideal S10000x128 .f32) (x1 : Vec Ideal S128x16 .f32) : out0_2 x0 x1 = support x0 x1 := by
  unfold out0_2
  rw [View.canon_unit_zero zero_offsets]
  simp only [View.ld_unit_zero (S := S10000x128) zero_offsets, View.ld_unit_zero (S := S128x16) zero_offsets]
  exact pay0 x0 x1

/-- The features' window holds the whole features array. -/
theorem iblk0_0_eq (c : Dev nD) (t : Fin cfg0.N) :
    (iblk0 V c 0 t : Vec Ideal S10000x128 .f32) = (V c main_arg0 : S10000x128.Idx → EReal) := by
  obtain ⟨e0, e1, -, -, -, -⟩ := idx_facts0 t
  unfold iblk0
  funext y
  rw [View.read_apply]
  show V c main_arg0 _ = V c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weight's window holds the whole weight array. -/
theorem iblk0_1_eq (c : Dev nD) (t : Fin cfg0.N) :
    (iblk0 V c 1 t : Vec Ideal S128x16 .f32) = (V c main_arg2 : S128x16.Idx → EReal) := by
  obtain ⟨-, -, e0, e1, -, -⟩ := idx_facts0 t
  unfold iblk0
  funext y
  rw [View.read_apply]
  show V c main_arg2 _ = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- What the point writes back is the output window's block of `support`. -/
theorem flushed0_eq (c : Dev nD) (t : Fin cfg0.N) :
    (dat0 V c).flushed 2 t = ((cfg0.win 2).blk t).view.read (Elt Ideal) (support (V c main_arg0) (V c main_arg2)) := by
  obtain ⟨-, -, -, -, e0, e1⟩ := idx_facts0 t
  show (cfg0.win 2).cut (grid0.coords t) ((dat0 V c).after 2 t) = _
  rw [after0_2, out0_eq, iblk0_0_eq V c t, iblk0_1_eq V c t]
  funext y
  show support (V c main_arg0) (V c main_arg2) y = support (V c main_arg0) (V c main_arg2) (((cfg0.win 2).blk t).view.emb y)
  congr 1
  funext a
  apply Fin.ext
  match a with
  | ⟨0, _⟩ => show (y 0).val = win0_2.index t (0 : Fin 2) * 10000 + 1 * (y 0).val; rw [e0]; omega
  | ⟨1, _⟩ => show (y 1).val = win0_2.index t (1 : Fin 2) * 16 + 1 * (y 1).val; rw [e1]; omega

/-- An index of the output array is in the point's block iff each coordinate is in the block's range. -/
theorem mem_blk0 (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_call0_v2).slice (win0_2.rect t)).set ↔ _
  rw [View.set_slice_whole, Rect.mem_set_unit]
  exact Iff.rfl

/-- The output array after the launch is `support` of the features and the weight as the launch finds them. -/
theorem final0 (c : Dev nD) : (dat0 V c).arrAt 2 cfg0.N = support (V c main_arg0) (V c main_arg2) :=
  (dat0 V c).arrAt_eq_of_cover 2 (support (V c main_arg0) (V c main_arg2)) (fun t _ => flushed0_eq V c t) fun i => by
    have hi0 : (i 0).val < 10000 := (i 0).isLt
    have hi1 : (i 1).val < 16 := (i 1).isLt
    obtain ⟨-, -, -, -, e0, e1⟩ := idx_facts0 t0_0
    refine ⟨t0_0, flush0_2 t0_0, ?_⟩
    rw [mem_blk0]
    intro a
    match a with
    | ⟨0, _⟩ => show win0_2.index t0_0 (0 : Fin 2) * 10000 ≤ (i 0).val ∧ (i 0).val < win0_2.index t0_0 (0 : Fin 2) * 10000 + 10000; rw [e0]; omega
    | ⟨1, _⟩ => show win0_2.index t0_0 (1 : Fin 2) * 16 ≤ (i 1).val ∧ (i 1).val < win0_2.index t0_0 (1 : Fin 2) * 16 + 16; rw [e1]; omega

end Cert.KernelIdeal.Hand

end
-- ==== Proof.Launch1.lean ====
/-
  The second launch: 25 points, point `t` on rows `400 t … 400 t + 399` of the adjacency. It leaves `layer1` of the
  adjacency, the support, the one-row bias and the second weight, as the launch finds them, in its output array.

  The adjacency's window at point `t` holds those 400 rows; the other three input windows hold their whole arrays at
  every point. The body's one store leaves `layer1` of the rows it loaded, and a block of rows of `layer1` is `layer1` of
  that block of rows, so what point `t` writes back is block `t` of the whole-array `layer1`. The 25 blocks cover the
  output: row `r` is in the block of point `r / 400`.
-/
import proofs.«146205_g68719476814_cont_9to1_m_1391_1_alg».proof.Proof.Gen.KernelIdeal.Frame
import proofs.«146205_g68719476814_cont_9to1_m_1391_1_alg».proof.Proof.Body
import Idealize.ShloMosaic.Lib.Pipeline.Value

set_option maxRecDepth 16384

noncomputable section

namespace Cert.KernelIdeal.Hand

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

-- the contents of the core's buffers when the launch is entered: a parameter, never opened here
variable (V : (c : Dev nD) → (b : Ref sig .tc) → Buf (Elt Ideal) ((c : Thread nD τ).loc b))

/-- The block indices over the grid: the adjacency's and the output's windows move with the point along the rows; the
    other windows stay at block zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The body's one store leaves `layer1` of the rows it loaded. -/
theorem out1_eq (x0 : Vec Ideal S400x10000 .f32) (x1 : Vec Ideal S10000x16 .f32) (x2 : Vec Ideal S1x16 .f32) (x3 : Vec Ideal S16x8 .f32) :
    out1_4 x0 x1 x2 x3 = layer1 (R := 400) x0 x1 x2 x3 := by
  unfold out1_4
  rw [View.canon_unit_zero zero_offsets]
  simp only [View.ld_unit_zero (S := S400x10000) zero_offsets, View.ld_unit_zero (S := S10000x16) zero_offsets,
    View.ld_unit_zero (S := S1x16) zero_offsets, View.ld_unit_zero (S := S16x8) zero_offsets]
  exact pay1 x0 x1 x2 x3

/-- The adjacency's window at point `t` holds rows `400 t …` of the adjacency. -/
theorem iblk1_0_rows (c : Dev nD) (t : Fin cfg1.N) (p : Fin 400) (k : Fin 10000) (h : 400 * t.val + p.val < 10000) :
    (iblk1 V c 0 t : Vec Ideal S400x10000 .f32) (ix2 p k)
      = (V c main_arg1 : S10000x10000.Idx → EReal) (ix2 (⟨400 * t.val + p.val, h⟩ : Fin 10000) k) := by
  obtain ⟨e0, e1, -, -, -, -, -, -, -, -⟩ := idx_facts1 t
  unfold iblk1
  rw [View.read_apply]
  show V c main_arg1 _ = V c main_arg1 _
  congr 1
  funext a
  apply Fin.ext
  match a with
  | ⟨0, _⟩ => show win1_0.index t (0 : Fin 2) * 400 + 1 * p.val = 400 * t.val + p.val; rw [e0]; omega
  | ⟨1, _⟩ => show win1_0.index t (1 : Fin 2) * 10000 + 1 * k.val = k.val; rw [e1]; omega

/-- The support's window holds the whole support. -/
theorem iblk1_1_eq (c : Dev nD) (t : Fin cfg1.N) :
    (iblk1 V c 1 t : Vec Ideal S10000x16 .f32) = (V c main_call0_v2 : S10000x16.Idx → EReal) := by
  obtain ⟨-, -, e0, e1, -, -, -, -, -, -⟩ := idx_facts1 t
  unfold iblk1
  funext y
  rw [View.read_apply]
  show V c main_call0_v2 _ = V c main_call0_v2 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 16 + 1 * (y 1).val = (y 1).val; rw [e1]; omega

/-- The bias's window holds the whole one-row bias. -/
theorem iblk1_2_eq (c : Dev nD) (t : Fin cfg1.N) :
    (iblk1 V c 2 t : Vec Ideal S1x16 .f32) = (V c main_call0_v0 : S1x16.Idx → EReal) := by
  obtain ⟨-, -, -, -, e0, e1, -, -, -, -⟩ := idx_facts1 t
  unfold iblk1
  funext y
  rw [View.read_apply]
  show V c main_call0_v0 _ = V c main_call0_v0 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

/-- The second weight's window holds the whole weight. -/
theorem iblk1_3_eq (c : Dev nD) (t : Fin cfg1.N) :
    (iblk1 V c 3 t : Vec Ideal S16x8 .f32) = (V c main_arg4 : S16x8.Idx → EReal) := by
  obtain ⟨-, -, -, -, -, -, e0, e1, -, -⟩ := idx_facts1 t
  unfold iblk1
  funext y
  rw [View.read_apply]
  show V c main_arg4 _ = V c main_arg4 y
  congr 1
  funext a
  apply Fin.ext
  match a with
  | ⟨0, _⟩ => show win1_3.index t (0 : Fin 2) * 16 + 1 * (y 0).val = (y 0).val; rw [e0]; omega
  | ⟨1, _⟩ => show win1_3.index t (1 : Fin 2) * 8 + 1 * (y 1).val = (y 1).val; rw [e1]; omega

/-- What point `t` writes back is block `t` of the whole-array `layer1`. -/
theorem flushed1_eq (c : Dev nD) (t : Fin cfg1.N) :
    (dat1 V c).flushed 4 t = ((cfg1.win 4).blk t).view.read (Elt Ideal)
      (layer1 (R := 10000) (V c main_arg1) (V c main_call0_v2) (V c main_call0_v0) (V c main_arg4)) := by
  obtain ⟨-, -, -, -, -, -, -, -, e0, e1⟩ := idx_facts1 t
  show (cfg1.win 4).cut (grid1.coords t) ((dat1 V c).after 4 t) = _
  rw [after1_4, out1_eq, iblk1_1_eq V c t, iblk1_2_eq V c t, iblk1_3_eq V c t]
  funext y
  show layer1 (R := 400) (iblk1 V c 0 t) (V c main_call0_v2) (V c main_call0_v0) (V c main_arg4) y
    = layer1 (R := 10000) (V c main_arg1) (V c main_call0_v2) (V c main_call0_v0) (V c main_arg4) (((cfg1.win 4).blk t).view.emb y)
  refine layer1_rows (400 * t.val) (V c main_arg1) (iblk1 V c 0 t) (V c main_call0_v2) (V c main_call0_v0) (V c main_arg4)
    (fun p k h => iblk1_0_rows V c t p k h) y (((cfg1.win 4).blk t).view.emb y) ?_ ?_
  · show win1_4.index t (0 : Fin 2) * 400 + 1 * (y 0).val = 400 * t.val + (y 0).val; rw [e0]; omega
  · show win1_4.index t (1 : Fin 2) * 8 + 1 * (y 1).val = (y 1).val; rw [e1]; omega

/-- An index of the output array is in point `t`'s block iff each coordinate is in the block's range. -/
theorem mem_blk1 (t : Fin cfg1.N) (i : S10000x8.Idx) :
    i ∈ ((cfg1.win 4).blk t).view.set ↔ ∀ a : Fin 2, win1_4.index t a * S400x8.size a ≤ (i a).val ∧ (i a).val < win1_4.index t a * S400x8.size a + S400x8.size a := by
  show i ∈ ((View.whole main_call0_v3).slice (win1_4.rect t)).set ↔ _
  rw [View.set_slice_whole, Rect.mem_set_unit]
  exact Iff.rfl

/-- The output array after the launch is `layer1` of the arrays as the launch finds them. -/
theorem final1 (c : Dev nD) : (dat1 V c).arrAt 4 cfg1.N
    = layer1 (R := 10000) (V c main_arg1) (V c main_call0_v2) (V c main_call0_v0) (V c main_arg4) :=
  (dat1 V c).arrAt_eq_of_cover 4 (layer1 (R := 10000) (V c main_arg1) (V c main_call0_v2) (V c main_call0_v0) (V c main_arg4))
    (fun t _ => flushed1_eq V c t) fun i => by
    have hN : cfg1.N = 25 := N_1
    have hi0 : (i 0).val < 10000 := (i 0).isLt
    have hi1 : (i 1).val < 8 := (i 1).isLt
    have ht : (i 0).val / 400 < cfg1.N := by rw [hN]; omega
    obtain ⟨-, -, -, -, -, -, -, -, e0, e1⟩ := idx_facts1 ⟨(i 0).val / 400, ht⟩
    refine ⟨⟨(i 0).val / 400, ht⟩, flush1_4 _, ?_⟩
    rw [mem_blk1]
    intro a
    match a with
    | ⟨0, _⟩ =>
      show win1_4.index ⟨(i 0).val / 400, ht⟩ (0 : Fin 2) * 400 ≤ (i 0).val ∧ (i 0).val < win1_4.index ⟨(i 0).val / 400, ht⟩ (0 : Fin 2) * 400 + 400
      rw [e0]; show (i 0).val / 400 * 400 ≤ (i 0).val ∧ (i 0).val < (i 0).val / 400 * 400 + 400; omega
    | ⟨1, _⟩ =>
      show win1_4.index ⟨(i 0).val / 400, ht⟩ (1 : Fin 2) * 8 ≤ (i 1).val ∧ (i 1).val < win1_4.index ⟨(i 0).val / 400, ht⟩ (1 : Fin 2) * 8 + 8
      rw [e1]; omega

end Cert.KernelIdeal.Hand

end
-- ==== Proof.Launch2.lean ====
/-
  The third launch: 25 points, point `t` on rows `400 t … 400 t + 399` of the adjacency. It leaves `layer2` of the
  adjacency, the first-layer result and the second one-row bias, as the launch finds them, in the program's result.

  The adjacency's window at point `t` holds those 400 rows; the other two input windows hold their whole arrays at
  every point. The body's one store leaves `layer2` of the rows it loaded, a block of rows of `layer2` is `layer2` of that
  block of rows, and the 25 blocks cover the output: row `r` is in the block of point `r / 400`.
-/
import proofs.«146205_g68719476814_cont_9to1_m_1391_1_alg».proof.Proof.Gen.KernelIdeal.Frame
import proofs.«146205_g68719476814_cont_9to1_m_1391_1_alg».proof.Proof.Body
import Idealize.ShloMosaic.Lib.Pipeline.Value

set_option maxRecDepth 16384

noncomputable section

namespace Cert.KernelIdeal.Hand

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

-- the contents of the core's buffers when the launch is entered: a parameter, never opened here
variable (V : (c : Dev nD) → (b : Ref sig .tc) → Buf (Elt Ideal) ((c : Thread nD τ).loc b))

/-- The block indices over the grid: the adjacency's and the output's windows move with the point along the rows; the
    other windows stay at block zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's one store leaves `layer2` of the rows it loaded. -/
theorem out2_eq (x0 : Vec Ideal S400x10000 .f32) (x1 : Vec Ideal S10000x8 .f32) (x2 : Vec Ideal S1x8 .f32) :
    out2_3 x0 x1 x2 = layer2 (R := 400) x0 x1 x2 := by
  unfold out2_3
  rw [View.canon_unit_zero zero_offsets]
  simp only [View.ld_unit_zero (S := S400x10000) zero_offsets, View.ld_unit_zero (S := S10000x8) zero_offsets,
    View.ld_unit_zero (S := S1x8) zero_offsets]
  exact pay2 x0 x1 x2

/-- The adjacency's window at point `t` holds rows `400 t …` of the adjacency. -/
theorem iblk2_0_rows (c : Dev nD) (t : Fin cfg2.N) (p : Fin 400) (k : Fin 10000) (h : 400 * t.val + p.val < 10000) :
    (iblk2 V c 0 t : Vec Ideal S400x10000 .f32) (ix2 p k)
      = (V c main_arg1 : S10000x10000.Idx → EReal) (ix2 (⟨400 * t.val + p.val, h⟩ : Fin 10000) k) := by
  obtain ⟨e0, e1, -, -, -, -, -, -⟩ := idx_facts2 t
  unfold iblk2
  rw [View.read_apply]
  show V c main_arg1 _ = V c main_arg1 _
  congr 1
  funext a
  apply Fin.ext
  match a with
  | ⟨0, _⟩ => show win2_0.index t (0 : Fin 2) * 400 + 1 * p.val = 400 * t.val + p.val; rw [e0]; omega
  | ⟨1, _⟩ => show win2_0.index t (1 : Fin 2) * 10000 + 1 * k.val = k.val; rw [e1]; omega

/-- The first-layer result's window holds the whole array. -/
theorem iblk2_1_eq (c : Dev nD) (t : Fin cfg2.N) :
    (iblk2 V c 1 t : Vec Ideal S10000x8 .f32) = (V c main_call0_v3 : S10000x8.Idx → EReal) := by
  obtain ⟨-, -, e0, e1, -, -, -, -⟩ := idx_facts2 t
  unfold iblk2
  funext y
  rw [View.read_apply]
  show V c main_call0_v3 _ = V c main_call0_v3 y
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 8 + 1 * (y 1).val = (y 1).val; rw [e1]; omega

/-- The bias's window holds the whole one-row bias. -/
theorem iblk2_2_eq (c : Dev nD) (t : Fin cfg2.N) :
    (iblk2 V c 2 t : Vec Ideal S1x8 .f32) = (V c main_call0_v1 : S1x8.Idx → EReal) := by
  obtain ⟨-, -, -, -, e0, e1, -, -⟩ := idx_facts2 t
  unfold iblk2
  funext y
  rw [View.read_apply]
  show V c main_call0_v1 _ = V c main_call0_v1 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 8 + 1 * (y 1).val = (y 1).val; rw [e1]; omega

/-- What point `t` writes back is block `t` of the whole-array `layer2`. -/
theorem flushed2_eq (c : Dev nD) (t : Fin cfg2.N) :
    (dat2 V c).flushed 3 t = ((cfg2.win 3).blk t).view.read (Elt Ideal)
      (layer2 (R := 10000) (V c main_arg1) (V c main_call0_v3) (V c main_call0_v1)) := by
  obtain ⟨-, -, -, -, -, -, e0, e1⟩ := idx_facts2 t
  show (cfg2.win 3).cut (grid2.coords t) ((dat2 V c).after 3 t) = _
  rw [after2_3, out2_eq, iblk2_1_eq V c t, iblk2_2_eq V c t]
  funext y
  show layer2 (R := 400) (iblk2 V c 0 t) (V c main_call0_v3) (V c main_call0_v1) y
    = layer2 (R := 10000) (V c main_arg1) (V c main_call0_v3) (V c main_call0_v1) (((cfg2.win 3).blk t).view.emb y)
  refine layer2_rows (400 * t.val) (V c main_arg1) (iblk2 V c 0 t) (V c main_call0_v3) (V c main_call0_v1)
    (fun p k h => iblk2_0_rows V c t p k h) y (((cfg2.win 3).blk t).view.emb y) ?_ ?_
  · show win2_3.index t (0 : Fin 2) * 400 + 1 * (y 0).val = 400 * t.val + (y 0).val; rw [e0]; omega
  · show win2_3.index t (1 : Fin 2) * 8 + 1 * (y 1).val = (y 1).val; rw [e1]; omega

/-- An index of the output array is in point `t`'s block iff each coordinate is in the block's range. -/
theorem mem_blk2 (t : Fin cfg2.N) (i : S10000x8.Idx) :
    i ∈ ((cfg2.win 3).blk t).view.set ↔ ∀ a : Fin 2, win2_3.index t a * S400x8.size a ≤ (i a).val ∧ (i a).val < win2_3.index t a * S400x8.size a + S400x8.size a := by
  show i ∈ ((View.whole main_v0).slice (win2_3.rect t)).set ↔ _
  rw [View.set_slice_whole, Rect.mem_set_unit]
  exact Iff.rfl

/-- The program's result after the launch is `layer2` of the arrays as the launch finds them. -/
theorem final2 (c : Dev nD) : (dat2 V c).arrAt 3 cfg2.N
    = layer2 (R := 10000) (V c main_arg1) (V c main_call0_v3) (V c main_call0_v1) :=
  (dat2 V c).arrAt_eq_of_cover 3 (layer2 (R := 10000) (V c main_arg1) (V c main_call0_v3) (V c main_call0_v1))
    (fun t _ => flushed2_eq V c t) fun i => by
    have hN : cfg2.N = 25 := N_2
    have hi0 : (i 0).val < 10000 := (i 0).isLt
    have hi1 : (i 1).val < 8 := (i 1).isLt
    have ht : (i 0).val / 400 < cfg2.N := by rw [hN]; omega
    obtain ⟨-, -, -, -, -, -, e0, e1⟩ := idx_facts2 ⟨(i 0).val / 400, ht⟩
    refine ⟨⟨(i 0).val / 400, ht⟩, flush2_3 _, ?_⟩
    rw [mem_blk2]
    intro a
    match a with
    | ⟨0, _⟩ =>
      show win2_3.index ⟨(i 0).val / 400, ht⟩ (0 : Fin 2) * 400 ≤ (i 0).val ∧ (i 0).val < win2_3.index ⟨(i 0).val / 400, ht⟩ (0 : Fin 2) * 400 + 400
      rw [e0]; show (i 0).val / 400 * 400 ≤ (i 0).val ∧ (i 0).val < (i 0).val / 400 * 400 + 400; omega
    | ⟨1, _⟩ =>
      show win2_3.index ⟨(i 0).val / 400, ht⟩ (1 : Fin 2) * 8 ≤ (i 1).val ∧ (i 1).val < win2_3.index ⟨(i 0).val / 400, ht⟩ (1 : Fin 2) * 8 + 8
      rw [e1]; omega

end Cert.KernelIdeal.Hand

end
-- ==== Proof.Chain.lean ====
/-
  The kernel program's result is the network `gcn` of its arguments.

  The buffer contents are followed through the program. The host stretch writes the two biases reshaped to one row and
  nothing else. The first launch leaves `support` of the features and the first weight in its output; the second finds
  that array, the adjacency, the reshaped first bias and the second weight where the earlier segments left them, and
  leaves `layer1` of them; the third finds the adjacency, that result and the reshaped second bias, and leaves `layer2` of
  them in the program's result. A launch changes no array but its own output, and an input array comes out of a launch
  as it went in, so each of these reads walks back to the launch memory.
-/
import proofs.«146205_g68719476814_cont_9to1_m_1391_1_alg».proof.Proof.Launch0
import proofs.«146205_g68719476814_cont_9to1_m_1391_1_alg».proof.Proof.Launch1
import proofs.«146205_g68719476814_cont_9to1_m_1391_1_alg».proof.Proof.Launch2
import Idealize.ShloMosaic.Lib.StableHlo.Run

set_option maxRecDepth 16384

noncomputable section

namespace Cert.KernelIdeal.Hand

open Cert.KernelIdeal Cert.KernelIdeal.Gen Cert.Gcn
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## The host stretch: the two one-row biases -/

/-- After the host stretch the first one-row bias is the first bias vector reshaped. -/
theorem W1_bias1 (c : Dev nD) : (W1 m ρ c (Proc.devRef .tc main_call0_v0) : S1x16.Idx → EReal)
    = shapeCast S1x16 (m ((c : Thread nD τ).loc main_arg3) : S16.Idx → EReal) shapeCasts_S16_S1x16 := by
  dsimp only [W1, hostOps0]
  after_results
  rfl

/-- After the host stretch the second one-row bias is the second bias vector reshaped. -/
theorem W1_bias2 (c : Dev nD) : (W1 m ρ c (Proc.devRef .tc main_call0_v1) : S1x8.Idx → EReal)
    = shapeCast S1x8 (m ((c : Thread nD τ).loc main_arg5) : S8.Idx → EReal) shapeCasts_S8_S1x8 := by
  dsimp only [W1, hostOps0]
  after_results
  rfl

/-! ## The argument arrays at the boundaries where a launch reads them -/

/-- The features as the first launch finds them. -/
theorem V1_arg0 (c : Dev nD) : V1 m ρ c main_arg0 = m ((c : Thread nD τ).loc main_arg0) :=
  ((W4_of_ne m ρ c main_arg0 (by decide)).trans ((W3_of_ne m ρ c main_arg0 (by decide)).trans
    ((W2_arr m ρ c 0).trans (((dat0 (V1 m ρ) c).arrAt_in 0 rfl _).trans (A_eq0 (V1 m ρ) c 0))))).symm.trans (W4_main_arg0 m ρ c)

/-- The first weight as the first launch finds it. -/
theorem V1_arg2 (c : Dev nD) : V1 m ρ c main_arg2 = m ((c : Thread nD τ).loc main_arg2) :=
  ((W4_of_ne m ρ c main_arg2 (by decide)).trans ((W3_of_ne m ρ c main_arg2 (by decide)).trans
    ((W2_arr m ρ c 1).trans (((dat0 (V1 m ρ) c).arrAt_in 1 rfl _).trans (A_eq0 (V1 m ρ) c 1))))).symm.trans (W4_main_arg2 m ρ c)

/-- The adjacency as the third launch finds it. -/
theorem V3_arg1 (c : Dev nD) : V3 m ρ c main_arg1 = m ((c : Thread nD τ).loc main_arg1) :=
  ((W4_arr m ρ c 0).trans (((dat2 (V3 m ρ) c).arrAt_in 0 rfl _).trans (A_eq2 (V3 m ρ) c 0))).symm.trans (W4_main_arg1 m ρ c)

/-- The adjacency as the second launch finds it. -/
theorem V2_arg1 (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans (V3_arg1 m ρ c)

/-- The second weight as the second launch finds it. -/
theorem V2_arg4 (c : Dev nD) : V2 m ρ c main_arg4 = m ((c : Thread nD τ).loc main_arg4) :=
  ((W4_of_ne m ρ c main_arg4 (by decide)).trans
    ((W3_arr m ρ c 3).trans (((dat1 (V2 m ρ) c).arrAt_in 3 rfl _).trans (A_eq1 (V2 m ρ) c 3)))).symm.trans (W4_main_arg4 m ρ c)

/-! ## The intermediate arrays -/

/-- The first launch's output, as the second launch finds it, is the support. -/
theorem V2_support (c : Dev nD) : (V2 m ρ c main_call0_v2 : S10000x16.Idx → EReal)
    = support (m ((c : Thread nD τ).loc main_arg0)) (m ((c : Thread nD τ).loc main_arg2)) :=
  (W2_arr m ρ c 2).trans ((final0 (V1 m ρ) c).trans (by rw [V1_arg0 m ρ c, V1_arg2 m ρ c]))

/-- The first one-row bias as the second launch finds it. -/
theorem V2_bias1 (c : Dev nD) : (V2 m ρ c main_call0_v0 : S1x16.Idx → EReal)
    = shapeCast S1x16 (m ((c : Thread nD τ).loc main_arg3) : S16.Idx → EReal) shapeCasts_S16_S1x16 :=
  (W2_of_ne m ρ c main_call0_v0 (by decide)).trans (W1_bias1 m ρ c)

/-- The second launch's output, as the third launch finds it, is `layer1` of the arguments. -/
theorem V3_layer1 (c : Dev nD) : (V3 m ρ c main_call0_v3 : S10000x8.Idx → EReal)
    = layer1 (R := 10000) (m ((c : Thread nD τ).loc main_arg1))
        (support (m ((c : Thread nD τ).loc main_arg0)) (m ((c : Thread nD τ).loc main_arg2)))
        (shapeCast S1x16 (m ((c : Thread nD τ).loc main_arg3) : S16.Idx → EReal) shapeCasts_S16_S1x16)
        (m ((c : Thread nD τ).loc main_arg4)) :=
  (W3_arr m ρ c 4).trans ((final1 (V2 m ρ) c).trans (by rw [V2_arg1 m ρ c, V2_support m ρ c, V2_bias1 m ρ c, V2_arg4 m ρ c]))

/-- The second one-row bias as the third launch finds it. -/
theorem V3_bias2 (c : Dev nD) : (V3 m ρ c main_call0_v1 : S1x8.Idx → EReal)
    = shapeCast S1x8 (m ((c : Thread nD τ).loc main_arg5) : S8.Idx → EReal) shapeCasts_S8_S1x8 :=
  (W3_of_ne m ρ c main_call0_v1 (by decide)).trans ((W2_of_ne m ρ c main_call0_v1 (by decide)).trans (W1_bias2 m ρ c))

/-! ## The result -/

/-- The program's result buffer at the last boundary holds `gcn` of the arguments, the biases reshaped to one row. -/
theorem result_eq (c : Dev nD) : (W4 m ρ c (Proc.devRef .tc main_v0) : S10000x8.Idx → EReal)
    = gcn (m ((c : Thread nD τ).loc main_arg0)) (m ((c : Thread nD τ).loc main_arg1)) (m ((c : Thread nD τ).loc main_arg2))
        (shapeCast S1x16 (m ((c : Thread nD τ).loc main_arg3) : S16.Idx → EReal) shapeCasts_S16_S1x16)
        (m ((c : Thread nD τ).loc main_arg4))
        (shapeCast S1x8 (m ((c : Thread nD τ).loc main_arg5) : S8.Idx → EReal) shapeCasts_S8_S1x8) :=
  (W4_arr m ρ c 3).trans ((final2 (V3 m ρ) c).trans (by rw [V3_arg1 m ρ c, V3_layer1 m ρ c, V3_bias2 m ρ c]; rfl))

end Cert.KernelIdeal.Hand

end
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«146205_g68719476814_cont_9to1_m_1391_1_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.Ref.lean ====
/-
  The reference program's result term is the network `gcn` of its arguments.

  The reference multiplies the features by the first weight, the adjacency by that, adds the first bias broadcast to one
  row and then over the rows, takes the maximum with a broadcast zero, multiplies by the second weight, multiplies the
  adjacency by that, adds the second bias broadcast the same way, and ends with 1 / (1 + exp (-z)) entry by entry. On the
  extended reals each plain product is the sum of products `rowsTimes`, the twice-broadcast bias is the one-row bias
  reshaped (`rowBias`, `rowBiasFloor` under the maximum), and 1 / (1 + exp (-z)) is the logistic function by its
  definition, the word 0x3F800000 being the number one.
-/
import proofs.«146205_g68719476814_cont_9to1_m_1391_1_alg».proof.Proof.Gen.ReferenceIdeal
import proofs.«146205_g68719476814_cont_9to1_m_1391_1_alg».proof.Proof.Spec
import proofs.«146205_g68719476814_cont_9to1_m_1391_1_alg».proof.Proof.LibRowBiasHost

noncomputable section

namespace Cert.ReferenceIdeal.RefValue

open Cert.ReferenceIdeal Cert.ReferenceIdeal.Gen
open Idealize.ShloMosaic Idealize.ShloMosaic.ValueIdx Cert.LibPlainDot Cert.LibRowBias Cert.Gcn

/-- The word 0x3F800000 is the number one. -/
theorem one_val : Ideal.ofBits .f32 0x3F800000#32 = 1 := by
  simp [Ideal.ofBits, Ideal.ieee, -EReal.coe_mul]; norm_num

/-- The reference's composed term is `gcn` of the arguments, the two bias vectors reshaped to one row. -/
theorem result_eq (x0 : FVec Ideal S10000x128 .f32) (x1 : FVec Ideal S10000x10000 .f32) (x2 : FVec Ideal S128x16 .f32)
    (x3 : FVec Ideal S16 .f32) (x4 : FVec Ideal S16x8 .f32) (x5 : FVec Ideal S8 .f32)
    (hc16 : S16.ShapeCasts S1x16) (hc8 : S8.ShapeCasts S1x8) :
    Host.divf (broadcastInDim S10000x8 ![] bcast_S_S10000x8 (constant (F := Ideal) S_ .f32 0x3F800000#32)) (addf (broadcastInDim S10000x8 ![] bcast_S_S10000x8 (constant (F := Ideal) S_ .f32 0x3F800000#32)) (Host.exp (Host.negf (addf (Host.dotGeneral dot_S10000x10000_S10000x8_S10000x8_1_0_0_1_n_n none x1 (Host.dotGeneral dot_S10000x16_S16x8_S10000x8_1_0_0_1_n_n none (maximumf (addf (Host.dotGeneral dot_S10000x10000_S10000x16_S10000x16_1_0_0_1_n_n none x1 (Host.dotGeneral dot_S10000x128_S128x16_S10000x16_1_0_0_1_n_n none x0 x2)) (broadcastInDim S10000x16 ![0, 1] bcast_S1x16_S10000x16_0_1 (broadcastInDim S1x16 ![1] bcast_S16_S1x16_1 x3))) (broadcastInDim S10000x16 ![] bcast_S_S10000x16 (constant (F := Ideal) S_ .f32 0x00000000#32))) x4)) (broadcastInDim S10000x8 ![0, 1] bcast_S1x8_S10000x8_0_1 (broadcastInDim S1x8 ![1] bcast_S8_S1x8_1 x5))))))
      = gcn x0 x1 x2 (shapeCast S1x16 x3 hc16) x4 (shapeCast S1x8 x5 hc8) := by
  have d1 : ∀ (l : FVec Ideal S10000x128 .f32) (r : FVec Ideal S128x16 .f32),
      Host.dotGeneral dot_S10000x128_S128x16_S10000x16_1_0_0_1_n_n none l r = rowsTimes (M := 10000) (K := 128) (N := 16) l r :=
    fun l r => dotGeneral_plain none _ l r
  have d2 : ∀ (l : FVec Ideal S10000x10000 .f32) (r : FVec Ideal S10000x16 .f32),
      Host.dotGeneral dot_S10000x10000_S10000x16_S10000x16_1_0_0_1_n_n none l r = rowsTimes (M := 10000) (K := 10000) (N := 16) l r :=
    fun l r => dotGeneral_plain none _ l r
  have d3 : ∀ (l : FVec Ideal S10000x16 .f32) (r : FVec Ideal S16x8 .f32),
      Host.dotGeneral dot_S10000x16_S16x8_S10000x8_1_0_0_1_n_n none l r = rowsTimes (M := 10000) (K := 16) (N := 8) l r :=
    fun l r => dotGeneral_plain none _ l r
  have d4 : ∀ (l : FVec Ideal S10000x10000 .f32) (r : FVec Ideal S10000x8 .f32),
      Host.dotGeneral dot_S10000x10000_S10000x8_S10000x8_1_0_0_1_n_n none l r = rowsTimes (M := 10000) (K := 10000) (N := 8) l r :=
    fun l r => dotGeneral_plain none _ l r
  rw [d1, d2, max_addf_bcastRow 0x00000000#32 _ x3 bcast_S_S10000x16 bcast_S16_S1x16_1 bcast_S1x16_S10000x16_0_1 hc16, d3, d4,
    addf_bcastRow _ x5 bcast_S8_S1x8_1 bcast_S1x8_S10000x8_0_1 hc8]
  funext i
  show Ideal.div (Ideal.ofBits .f32 0x3F800000#32) (Ideal.ofBits .f32 0x3F800000#32 + Ideal.exp (-(rowBias _ _ i))) = _
  rw [one_val]
  rfl

end Cert.ReferenceIdeal.RefValue

end
-- ==== Proof.lean ====
/-
  The kernel program against its reference, on the extended reals: a two-layer graph convolution over a dense adjacency,
      out = logistic (adj · (max (adj · (x · W1) + b1, 0) · W2) + b2).

  The kernel program computes x · W1 in one launch, then streams the adjacency twice in blocks of 400 rows: the second
  launch writes max (rows · (x · W1) + b1, 0) · W2 for each block of rows, the third writes logistic (rows · g + b2) for
  each block of rows, g the second launch's whole output. The reference computes the same products in the same grouping
  on whole arrays and spells the logistic function as 1 / (1 + exp (-z)).

  Both are the one function `gcn` of the six arguments (Proof/Spec.lean). An entry of either layer depends on its own row
  of the adjacency only, so a block of rows of a layer is the layer of that block of rows; the blocks of 400 rows tile the
  10000 rows; a matrix-unit product into zero and a host dot product are the same sum of products; the bias broadcast
  over the rows is the same one row on both sides; and 1 / (1 + exp (-z)) is the logistic function by definition. No
  product is reassociated and no factor is moved across a sum, so the finiteness of the inputs is never used.

  The three frames are the generated frames of the two kernel programs and the reference's generated run with its
  result dropped; the idealization rewrote nothing, so that conjunct is trivial.
-/
import proofs.«146205_g68719476814_cont_9to1_m_1391_1_alg».proof.Defs
import proofs.«146205_g68719476814_cont_9to1_m_1391_1_alg».proof.Proof.Gen.Kernel
import proofs.«146205_g68719476814_cont_9to1_m_1391_1_alg».proof.Proof.Gen.Kernel.Skeleton
import proofs.«146205_g68719476814_cont_9to1_m_1391_1_alg».proof.Proof.Gen.Kernel.Launch
import proofs.«146205_g68719476814_cont_9to1_m_1391_1_alg».proof.Proof.Gen.Kernel.Points
import proofs.«146205_g68719476814_cont_9to1_m_1391_1_alg».proof.Proof.Gen.Kernel.Frame
import proofs.«146205_g68719476814_cont_9to1_m_1391_1_alg».proof.Proof.Gen.KernelIdeal
import proofs.«146205_g68719476814_cont_9to1_m_1391_1_alg».proof.Proof.Gen.KernelIdeal.Skeleton
import proofs.«146205_g68719476814_cont_9to1_m_1391_1_alg».proof.Proof.Gen.KernelIdeal.Launch
import proofs.«146205_g68719476814_cont_9to1_m_1391_1_alg».proof.Proof.Gen.KernelIdeal.Points
import proofs.«146205_g68719476814_cont_9to1_m_1391_1_alg».proof.Proof.Gen.KernelIdeal.Frame
import proofs.«146205_g68719476814_cont_9to1_m_1391_1_alg».proof.Proof.Gen.ReferenceIdeal
import proofs.«146205_g68719476814_cont_9to1_m_1391_1_alg».proof.Proof.Gen.Pre_finite_inputs
import proofs.«146205_g68719476814_cont_9to1_m_1391_1_alg».proof.Proof.Gen.ReferenceIdeal.Run
import proofs.«146205_g68719476814_cont_9to1_m_1391_1_alg».proof.Proof.KernelRun
import proofs.«146205_g68719476814_cont_9to1_m_1391_1_alg».proof.Proof.Chain
import proofs.«146205_g68719476814_cont_9to1_m_1391_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel program's result and the reference's are `gcn` of the same arguments. -/
theorem algebraic : Cert.algebraic_KernelIdeal_ReferenceIdeal := by
  intro m ρ m' ρ' _ hagree
  have hk := (θ_run Cert.KernelIdeal.defs _ _).mono
    (fun r h c => (⟨(h c).1.trans (Cert.KernelIdeal.Hand.result_eq m ρ c), (h c).2⟩ : _ ∧ _))
    (Cert.KernelIdeal.Hand.run_result (F := Ideal) m ρ)
  refine ⟨_, hk, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact Cert.ReferenceIdeal.RefValue.result_eq _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
